-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1x2x1600000 : Shape := ⟨3, ![1, 2, 1600000]⟩
abbrev S16x32 : Shape := ⟨2, ![16, 32]⟩
abbrev S16 : Shape := ⟨1, ![16]⟩
abbrev S32x16 : Shape := ⟨2, ![32, 16]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S32x16 : S_.BroadcastsInDim S32x16 (![] : Fin 0 → Fin S32x16.rank)
  reducesTo_S32x16_S_d0_1 : S32x16.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x16 .f32) (main_arg6 : FVec F S32 .f32) (main_arg7 : FVec F S32x16 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32x16 .f32 := Host.absf main_arg5
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x16 .f32 := Host.absf main_arg7
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  main_v33

def fn {F : FTy → Type} [FloatOps F] (main_arg0 : FVec F S100000x32 .f32) (main_arg1 : IVec S1x2x1600000 32) (main_arg2 : FVec F S16x32 .f32) (main_arg3 : FVec F S16 .f32) (main_arg4 : FVec F S16x32 .f32) (main_arg5 : FVec F S32x16 .f32) (main_arg6 : FVec F S32 .f32) (main_arg7 : FVec F S32x16 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg4
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg5 main_arg6 main_arg7 main_v13 main_v16
-- ==== Kernel.lean ====
abbrev S100000x32 : Shape := ⟨2, ![100000, 32]⟩
abbrev S1x2x1600000 : Shape := ⟨3, ![1, 2, 1600000]⟩
abbrev S16x32 : Shape := ⟨2, ![16, 32]⟩
abbrev S16 : Shape := ⟨1, ![16]⟩
abbrev S32x16 : Shape := ⟨2, ![32, 16]⟩
abbrev S32 : Shape := ⟨1, ![32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩
abbrev S1x16 : Shape := ⟨2, ![1, 16]⟩
abbrev S100000x16 : Shape := ⟨2, ![100000, 16]⟩
abbrev S5000x32 : Shape := ⟨2, ![5000, 32]⟩
abbrev S5000x1 : Shape := ⟨2, ![5000, 1]⟩
abbrev S5000x16 : Shape := ⟨2, ![5000, 16]⟩
abbrev S1600000x16 : Shape := ⟨2, ![1600000, 16]⟩
abbrev S1x32 : Shape := ⟨2, ![1, 32]⟩

abbrev nBuf : Space → Nat
  | .hbm => 54
  | .vmem => 22
  | .smem => 0
  | _ => 0

abbrev bufTy : (tb : Table) → Fin (tcTables nBuf tb) → BufTy
  | .hbm, ⟨0, _⟩ => ⟨S100000x32, .f32⟩
  | .hbm, ⟨1, _⟩ => ⟨S1x2x1600000, .i32⟩
  | .hbm, ⟨2, _⟩ => ⟨S16x32, .f32⟩
  | .hbm, ⟨3, _⟩ => ⟨S16, .f32⟩
  | .hbm, ⟨4, _⟩ => ⟨S16x32, .f32⟩
  | .hbm, ⟨5, _⟩ => ⟨S32x16, .f32⟩
  | .hbm, ⟨6, _⟩ => ⟨S32, .f32⟩
  | .hbm, ⟨7, _⟩ => ⟨S32x16, .f32⟩
  | .hbm, ⟨8, _⟩ => ⟨S2x1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S100000x1, .f32⟩
  | .hbm, ⟨20, _⟩ => ⟨S100000x32, .bf16⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x32, .bf16⟩
  | .hbm, ⟨30, _⟩ => ⟨S1600000x32, .f32⟩
  | .hbm, ⟨31, _⟩ => ⟨S_, .f32⟩
  | .hbm, ⟨32, _⟩ => ⟨S100000x32, .f32⟩
  | .hbm, ⟨33, _⟩ => ⟨S1600000x1, .i32⟩
  | .hbm, ⟨34, _⟩ => ⟨S100000x32, .f32⟩
  | .hbm, ⟨35, _⟩ => ⟨S1x16, .f32⟩
  | .hbm, ⟨36, _⟩ => ⟨S100000x16, .f32⟩
  | .hbm, ⟨37, _⟩ => ⟨S100000x16, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x16, .bf16⟩
  | .hbm, ⟨47, _⟩ => ⟨S1600000x16, .f32⟩
  | .hbm, ⟨48, _⟩ => ⟨S_, .f32⟩
  | .hbm, ⟨49, _⟩ => ⟨S100000x16, .f32⟩
  | .hbm, ⟨50, _⟩ => ⟨S1600000x1, .i32⟩
  | .hbm, ⟨51, _⟩ => ⟨S100000x16, .f32⟩
  | .hbm, ⟨52, _⟩ => ⟨S1x32, .f32⟩
  | .hbm, ⟨53, _⟩ => ⟨S100000x32, .f32⟩
  | .local _ .vmem, ⟨0, _⟩ => ⟨S5000x32, .f32⟩
  | .local _ .vmem, ⟨1, _⟩ => ⟨S5000x32, .f32⟩
  | .local _ .vmem, ⟨2, _⟩ => ⟨S5000x1, .f32⟩
  | .local _ .vmem, ⟨3, _⟩ => ⟨S5000x1, .f32⟩
  | .local _ .vmem, ⟨4, _⟩ => ⟨S5000x32, .f32⟩
  | .local _ .vmem, ⟨5, _⟩ => ⟨S5000x32, .f32⟩
  | .local _ .vmem, ⟨6, _⟩ => ⟨S16x32, .f32⟩
  | .local _ .vmem, ⟨7, _⟩ => ⟨S1x16, .f32⟩
  | .local _ .vmem, ⟨8, _⟩ => ⟨S16x32, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S5000x1, .f32⟩
  | .local _ .vmem, ⟨14, _⟩ => ⟨S5000x1, .f32⟩
  | .local _ .vmem, ⟨15, _⟩ => ⟨S5000x16, .f32⟩
  | .local _ .vmem, ⟨16, _⟩ => ⟨S5000x16, .f32⟩
  | .local _ .vmem, ⟨17, _⟩ => ⟨S32x16, .f32⟩
  | .local _ .vmem, ⟨18, _⟩ => ⟨S1x32, .f32⟩
  | .local _ .vmem, ⟨19, _⟩ => ⟨S32x16, .f32⟩
  | .local _ .vmem, ⟨20, _⟩ => ⟨S5000x32, .f32⟩
  | .local _ .vmem, ⟨21, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1x2x1600000_S2x1600000 : S1x2x1600000.ShapeCasts S2x1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bitsLt_bf16_f32 : FTy.bits .bf16 < FTy.bits .f32
  bcast_S_S100000x32 : S_.BroadcastsInDim S100000x32 (![] : Fin 0 → Fin S100000x32.rank)
  shapeCasts_S16_S1x16 : S16.ShapeCasts S1x16
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S16x32_S16x32_0_0 : ∀ a, (![0, 0] : Fin 2 → Nat) a + S16x32.size a ≤ S16x32.size a
  h_S16x32 : 0 < S16x32.numel
  transposes_S16x32_p1_0_S32x16 : S16x32.Transposes [1, 0] S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  shapeCasts_S32_S1x32 : S32.ShapeCasts S1x32
  shapeCasts_S5000x16_S5000x16 : S5000x16.ShapeCasts S5000x16
  broadcasts_S5000x1_S5000x16 : S5000x1.Broadcasts S5000x16
  inb_S32x16_S32x16_0_0 : ∀ a, (![0, 0] : Fin 2 → Nat) a + S32x16.size a ≤ S32x16.size a
  h_S32x16 : 0 < S32x16.numel
  transposes_S32x16_p1_0_S16x32 : S32x16.Transposes [1, 0] S16x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S5000x32_S32x16_S5000x16_1_0_0_1_n_n_wf : DotDims.WF S5000x32 S32x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S5000x16_S16x32_S5000x32_1_0_0_1_n_n_wf : DotDims.WF S5000x16 S16x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x32.size a ≤ S16x32.size a
  hwx0_5 : ∀ i : grid0.Coords, EltTy.bits .f32 = 32 ∨ (Rect.block (s := S16x32) S16x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x16.size a ≤ S100000x16.size a
  hwx0_6 : ∀ i : grid0.Coords, EltTy.bits .f32 = 32 ∨ (Rect.block (s := S100000x16) S5000x16.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x16.size a ≤ S100000x16.size a
  hwx1_2 : ∀ i : grid1.Coords, EltTy.bits .f32 = 32 ∨ (Rect.block (s := S100000x16) S5000x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x16.size a ≤ S32x16.size a
  hwx1_3 : ∀ i : grid1.Coords, EltTy.bits .f32 = 32 ∨ (Rect.block (s := S32x16) S32x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x16.size a ≤ S32x16.size a
  hwx1_5 : ∀ i : grid1.Coords, EltTy.bits .f32 = 32 ∨ (Rect.block (s := S32x16) S32x16.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf

abbrev win0_0 : Pipeline.Window sig grid0 :=
  Pipeline.Window.ofSpec (Memref.whole main_v21) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S16x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v35) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S5000x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S32x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x32 : Shape := ⟨2, ![100000, 32]⟩
abbrev S1x2x1600000 : Shape := ⟨3, ![1, 2, 1600000]⟩
abbrev S16x32 : Shape := ⟨2, ![16, 32]⟩
abbrev S16 : Shape := ⟨1, ![16]⟩
abbrev S32x16 : Shape := ⟨2, ![32, 16]⟩
abbrev S32 : Shape := ⟨1, ![32]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000 : Shape := ⟨1, ![100000]⟩
abbrev S100000x1 : Shape := ⟨2, ![100000, 1]⟩
abbrev S100000x16 : Shape := ⟨2, ![100000, 16]⟩
abbrev S1x16 : Shape := ⟨2, ![1, 16]⟩
abbrev S1600000x16 : Shape := ⟨2, ![1600000, 16]⟩
abbrev S1x32 : Shape := ⟨2, ![1, 32]⟩

abbrev nBuf : Space → Nat
  | .hbm => 82
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1x2x1600000, .i32⟩
  | .hbm, ⟨2, _⟩ => ⟨S16x32, .f32⟩
  | .hbm, ⟨3, _⟩ => ⟨S16, .f32⟩
  | .hbm, ⟨4, _⟩ => ⟨S16x32, .f32⟩
  | .hbm, ⟨5, _⟩ => ⟨S32x16, .f32⟩
  | .hbm, ⟨6, _⟩ => ⟨S32, .f32⟩
  | .hbm, ⟨7, _⟩ => ⟨S32x16, .f32⟩
  | .hbm, ⟨8, _⟩ => ⟨S2x1600000, .i32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x32, .f32⟩
  | .hbm, ⟨37, _⟩ => ⟨S100000x32, .f32⟩
  | .hbm, ⟨38, _⟩ => ⟨S32x16, .f32⟩
  | .hbm, ⟨39, _⟩ => ⟨S100000x16, .f32⟩
  | .hbm, ⟨40, _⟩ => ⟨S1x16, .f32⟩
  | .hbm, ⟨41, _⟩ => ⟨S100000x16, .f32⟩
  | .hbm, ⟨42, _⟩ => ⟨S100000x16, .f32⟩
  | .hbm, ⟨43, _⟩ => ⟨S32x16, .f32⟩
  | .hbm, ⟨44, _⟩ => ⟨S100000x16, .f32⟩
  | .hbm, ⟨45, _⟩ => ⟨S100000x16, .f32⟩
  | .hbm, ⟨46, _⟩ => ⟨S_, .f32⟩
  | .hbm, ⟨47, _⟩ => ⟨S100000x16, .f32⟩
  | .hbm, ⟨48, _⟩ => ⟨S100000x16, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x16, .f32⟩
  | .hbm, ⟨58, _⟩ => ⟨S_, .f32⟩
  | .hbm, ⟨59, _⟩ => ⟨S100000x16, .f32⟩
  | .hbm, ⟨60, _⟩ => ⟨S1600000x1, .i32⟩
  | .hbm, ⟨61, _⟩ => ⟨S100000x16, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x16, .f32⟩
  | .hbm, ⟨73, _⟩ => ⟨S100000x16, .f32⟩
  | .hbm, ⟨74, _⟩ => ⟨S16x32, .f32⟩
  | .hbm, ⟨75, _⟩ => ⟨S100000x32, .f32⟩
  | .hbm, ⟨76, _⟩ => ⟨S1x32, .f32⟩
  | .hbm, ⟨77, _⟩ => ⟨S100000x32, .f32⟩
  | .hbm, ⟨78, _⟩ => ⟨S100000x32, .f32⟩
  | .hbm, ⟨79, _⟩ => ⟨S16x32, .f32⟩
  | .hbm, ⟨80, _⟩ => ⟨S100000x32, .f32⟩
  | .hbm, ⟨81, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_call0_cst : Ref sig .tc := ⟨.hbm, 46, rfl⟩
abbrev main_call0_v0 : Ref sig .tc := ⟨.hbm, 47, rfl⟩
abbrev main_v32 : Ref sig .tc := ⟨.hbm, 48, rfl⟩
abbrev main_c_4 : Ref sig .tc := ⟨.hbm, 49, rfl⟩
abbrev main_v33 : Ref sig .tc := ⟨.hbm, 50, rfl⟩
abbrev main_v34 : Ref sig .tc := ⟨.hbm, 51, rfl⟩
abbrev main_c_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]

class Facts₀ : Prop where
  shapeCasts_S1x2x1600000_S2x1600000 : S1x2x1600000.ShapeCasts S2x1600000
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S16x32_S32x16_1_0 : S16x32.Transposes [1, 0] S32x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  transposes_S32x16_S16x32_1_0 : S32x16.Transposes [1, 0] S16x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S100000_S1600000x1_S1600000_n_0_0_1_wf : ScatterDims.WF S100000 S1600000x1 S1600000 [] [0] [0] 1
  dot_S100000x32_S32x16_S100000x16_1_0_0_1_n_n_wf : DotDims.WF S100000x32 S32x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf

class Facts : Prop extends Facts₀ where

variable [Facts]
-- ==== Proof.KernelRun.lean ====
/-
  The kernel program's run with its result named.

  The program is a stretch of host operations, a first tiled call, a second stretch of host operations and a
  second tiled call.  Every weakly fair execution terminates without a fault, and at the end every buffer that
  outlives the calls holds the contents obtained by folding the four segments over the launch memory: the
  host operations' values, and for each tiled call its arrays as the write-backs of all its grid points leave
  them.  Read at the result buffer this is the value the second call's output array ends with; read at an
  argument it is the launch contents, since nothing writes an argument.
-/
import proofs.«133266_j26216480375160_2_alg».proof.Proof.Gen.KernelIdeal.Frame

set_option maxRecDepth 16384

noncomputable section

namespace Cert.Sage.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last stage of the
    fold of the program's segments over the launch memory, and the arguments as launched. -/
theorem run_out : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v37 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.Run

end
-- ==== Proof.SageLayer.lean ====
/-
  One layer of mean-aggregating graph convolution, entry by entry on the extended reals.

  For node `p` and output feature `q` the layer is

      ( ∑ c, (msg p c / max (deg p) 1) * Wl q c  +  ∑ c, x p c * Wr q c )  +  b q

  where `msg p` is the sum of the neighbours' feature rows, `deg p` the number of neighbours (kept as a
  column), `x p` the node's own row, and both weight matrices are used transposed.  Everything about it is
  row-local: entry `(p, q)` reads row `p` of `msg`, `deg` and `x` only.  So the layer of a block of
  consecutive rows is the same block of the layer of the whole arrays (`lin_rows`), which is what lets a
  computation tiled over the nodes be compared with one over all nodes at once.

  The two summands and the bias may be added in either order: addition of extended reals is commutative and
  associative (no finiteness is needed for that), `add_bias_mid`.
-/
import Idealize.ShloMosaic.PureOps.Ideal.Laws
import Idealize.ShloMosaic.Lib.ValueIdx

noncomputable section

namespace Cert.Sage

open Idealize.ShloMosaic Idealize.ShloMosaic.ValueIdx

/-- An `n × k` matrix of extended reals. -/
abbrev Mat (n k : ℕ) : Type := (⟨2, ![n, k]⟩ : Shape).Idx → EReal

/-- The float word of `1.0`, read as an extended real, and that of `0.0`. -/
abbrev one : EReal := Ideal.ofBits .f32 0x3F800000#32
abbrev zero : EReal := Ideal.ofBits .f32 0x00000000#32

/-- Entry `c` of node `p`'s mean neighbour row: the summed row divided by the neighbour count, the count
    taken as at least one (an isolated node keeps its zero sum). -/
def mean {N Fi : ℕ} (msg : Mat N Fi) (deg : Mat N 1) (p : Fin N) (c : Fin Fi) : EReal :=
  Ideal.div (msg (ix2 p c)) (max (deg (ix2 p (0 : Fin 1))) one)

/-- The layer before its nonlinearity, at entry `(p, q)`. -/
def linAt {N Fi Fo : ℕ} (msg : Mat N Fi) (deg : Mat N 1) (x : Mat N Fi) (Wl : Mat Fo Fi) (b : Mat 1 Fo) (Wr : Mat Fo Fi)
    (p : Fin N) (q : Fin Fo) : EReal :=
  ((∑ c : Fin Fi, mean msg deg p c * Wl (ix2 q c)) + (∑ c : Fin Fi, x (ix2 p c) * Wr (ix2 q c))) + b (ix2 (0 : Fin 1) q)

/-- The layer before its nonlinearity, as a matrix. -/
def lin {N Fi Fo : ℕ} (msg : Mat N Fi) (deg : Mat N 1) (x : Mat N Fi) (Wl : Mat Fo Fi) (b : Mat 1 Fo) (Wr : Mat Fo Fi) : Mat N Fo :=
  fun j => linAt msg deg x Wl b Wr (j 0) (j 1)

/-- The layer followed by `max(·, 0)`. -/
def linRelu {N Fi Fo : ℕ} (msg : Mat N Fi) (deg : Mat N 1) (x : Mat N Fi) (Wl : Mat Fo Fi) (b : Mat 1 Fo) (Wr : Mat Fo Fi) : Mat N Fo :=
  fun j => max (linAt msg deg x Wl b Wr (j 0) (j 1)) zero

theorem lin_ix2 {N Fi Fo : ℕ} (msg : Mat N Fi) (deg : Mat N 1) (x : Mat N Fi) (Wl : Mat Fo Fi) (b : Mat 1 Fo) (Wr : Mat Fo Fi)
    (p : Fin N) (q : Fin Fo) : lin msg deg x Wl b Wr (ix2 p q) = linAt msg deg x Wl b Wr p q := rfl

theorem linRelu_ix2 {N Fi Fo : ℕ} (msg : Mat N Fi) (deg : Mat N 1) (x : Mat N Fi) (Wl : Mat Fo Fi) (b : Mat 1 Fo) (Wr : Mat Fo Fi)
    (p : Fin N) (q : Fin Fo) : linRelu msg deg x Wl b Wr (ix2 p q) = max (linAt msg deg x Wl b Wr p q) zero := rfl

/-- Row-locality: if row `r` of the small arrays is row `p` of the large ones, entry `(r, q)` of the small
    layer is entry `(p, q)` of the large one. -/
theorem linAt_rows {n N Fi Fo : ℕ} (msg' : Mat n Fi) (deg' : Mat n 1) (x' : Mat n Fi)
    (msg : Mat N Fi) (deg : Mat N 1) (x : Mat N Fi) (Wl : Mat Fo Fi) (b : Mat 1 Fo) (Wr : Mat Fo Fi)
    (r : Fin n) (p : Fin N)
    (hm : ∀ c : Fin Fi, msg' (ix2 r c) = msg (ix2 p c)) (hd : deg' (ix2 r (0 : Fin 1)) = deg (ix2 p (0 : Fin 1)))
    (hx : ∀ c : Fin Fi, x' (ix2 r c) = x (ix2 p c)) (q : Fin Fo) :
    linAt msg' deg' x' Wl b Wr r q = linAt msg deg x Wl b Wr p q := by
  unfold linAt mean
  rw [hd]
  simp only [hm, hx]

/-- The bias may be added between the two products or after them. -/
theorem add_bias_mid (l r b : EReal) : (l + b) + r = (l + r) + b := add_right_comm l b r

end Cert.Sage

end
-- ==== Proof.LibPlainMatmul.lean ====
import Idealize.ShloMosaic.PureOps.Ideal.Laws
import Idealize.ShloMosaic.Lib.ValueLayout
import Idealize.ShloMosaic.Lib.StackMember

/-!
A plain matrix product (rows by contraction, times contraction by columns) accumulated into the zero
matrix, read at one entry at the ideal values: the sum over the contracted coordinate of the products
of the two operands' entries.  Also: a record of dimension numbers with the plain product's lists IS
the plain product's record, and the bit pattern of the float `1.0` denotes the extended real `1`.
-/

noncomputable section

namespace Cert.Proof.LibPlainMatmul

open Idealize.ShloMosaic Idealize.ShloMosaic.ValueIdx

/-- The plain `m × k` by `k × n` product into the zero accumulator, at entry `(a, b)`, is
    `∑ c, A (a, c) * B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (F := Ideal) (DotDims.plain m k n) prec A B (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

/-- The bit pattern of the single-precision `1.0` denotes the extended real `1`. -/
theorem ofBits_one_f32 : Ideal.ofBits .f32 0x3F800000#32 = 1 :=
  IdealRules.sign_bit.ideal_onePat .f32

end Cert.Proof.LibPlainMatmul

end
-- ==== Proof.LibBlockReads.lean ====
/-
  Reads at one entry, at arbitrary sizes and at the ideal values, of what the body of a tiled dense layer
  does to its loaded blocks.

  `column_repeated`: a column `[n, 1]` repeated along the other axis to `[n, q]` has, at `(p, c)`, the column's
  entry `(p, 0)`.  `row_repeated`: a row `[1, q]` repeated down `n` rows has, at `(p, c)`, the row's entry
  `(0, c)`.  `matmul_transposed`: a plain `n × k` by `k × m` matrix product accumulated from the zero matrix,
  whose right operand is the transpose of an `m × k` matrix `B`, has at `(p, q)` the sum over the shared
  coordinate `c` of `A (p, c) * B (q, c)` — stated for any record of dimension numbers equal to the plain
  product's, so that a printed record is passed with `rfl`.  It uses `matmul_plain_zero_apply` of
  LibPlainMatmul.lean (keep that file beside this one).
-/
import proofs.«133266_j26216480375160_2_alg».proof.Proof.LibPlainMatmul
import Idealize.ShloMosaic.Lib.Pipeline.Value
import Idealize.ShloMosaic.Lib.ValueLayout

noncomputable section

namespace Cert.Proof.LibBlockReads

open Idealize.ShloMosaic Idealize.ShloMosaic.ValueIdx

variable {α : Type}

/-- A column repeated along the rows' other axis reads, at `(p, c)`, its entry `(p, 0)`. -/
theorem column_repeated {n q : ℕ} (x : (⟨2, ![n, 1]⟩ : Shape).Idx → α)
    (h : (⟨2, ![n, 1]⟩ : Shape).Broadcasts ⟨2, ![n, q]⟩) (p : Fin n) (c : Fin q) :
    broadcastTo (⟨2, ![n, q]⟩ : Shape) x h (ix2 p c) = x (ix2 p (0 : Fin 1)) :=
  broadcastTo_apply x h _ (ix2 p (0 : Fin 1)) (fun a => match a with
    | ⟨0, _⟩ => by
      show p.val = if n = 1 then 0 else p.val
      split
      · have := p.isLt; omega
      · rfl
    | ⟨1, _⟩ => by
      show 0 = if (1 : ℕ) = 1 then 0 else c.val
      rw [if_pos rfl])

/-- A row repeated down the rows reads, at `(p, c)`, its entry `(0, c)`. -/
theorem row_repeated {n q : ℕ} (x : (⟨2, ![1, q]⟩ : Shape).Idx → α)
    (h : (⟨2, ![1, q]⟩ : Shape).Broadcasts ⟨2, ![n, q]⟩) (p : Fin n) (c : Fin q) :
    broadcastTo (⟨2, ![n, q]⟩ : Shape) x h (ix2 p c) = x (ix2 (0 : Fin 1) c) :=
  broadcastTo_apply x h _ (ix2 (0 : Fin 1) c) (fun a => match a with
    | ⟨0, _⟩ => by
      show 0 = if (1 : ℕ) = 1 then 0 else p.val
      rw [if_pos rfl]
    | ⟨1, _⟩ => by
      show c.val = if q = 1 then 0 else c.val
      split
      · have := c.isLt; omega
      · rfl)

/-- A product with a transposed right operand, accumulated from zero: entry `(p, q)` is the sum over the
    shared axis of `A (p, c) * B (q, c)`. -/
theorem matmul_transposed {n k m : ℕ} {φ₁ φ₂ : FTy} (d : DotDims ⟨2, ![n, k]⟩ ⟨2, ![k, m]⟩ ⟨2, ![n, m]⟩)
    (hd : d = DotDims.plain n k m) (prec : Option ContractPrecision)
    (A : FVec Ideal ⟨2, ![n, k]⟩ φ₁) (B : FVec Ideal ⟨2, ![m, k]⟩ φ₂)
    (h : (⟨2, ![m, k]⟩ : Shape).Transposes [1, 0] ⟨2, ![k, m]⟩) (p : Fin n) (q : Fin m) :
    matmul (F := Ideal) d prec A (transpose (⟨2, ![k, m]⟩ : Shape) [1, 0] B h)
        (constant (F := Ideal) ⟨2, ![n, m]⟩ .f32 0x00000000#32) (ix2 p q)
      = ∑ c : Fin k, A (ix2 p c) * B (ix2 q c) := by
  subst hd
  refine (Cert.Proof.LibPlainMatmul.matmul_plain_zero_apply prec A _ p q).trans ?_
  refine Finset.sum_congr rfl fun c _ => ?_
  rw [transpose_ix2_apply]

end Cert.Proof.LibBlockReads

end
-- ==== Proof.KernelBody.lean ====
/-
  What each of the two kernel bodies stores, entry by entry at the ideal values.

  A body works on a block of 5000 consecutive nodes.  It divides the block of summed neighbour rows by the
  column of neighbour counts (each count raised to at least one and repeated along the row), multiplies the
  quotient and the block of the nodes' own rows by the two weight matrices transposed — each product a sum
  over the input features —, adds the two products, then the bias row repeated down the block, and (first
  body only) takes the maximum with zero.  Rounding the operands of a product to a shorter format is the
  identity on extended reals.  So entry `(p, q)` of what is stored is the layer `Sage.linAt` of the loaded
  blocks at `(p, q)`.
-/
import proofs.«133266_j26216480375160_2_alg».proof.Proof.Gen.KernelIdeal.Skeleton
import proofs.«133266_j26216480375160_2_alg».proof.Proof.SageLayer
import proofs.«133266_j26216480375160_2_alg».proof.Proof.LibBlockReads

noncomputable section

namespace Cert.Sage.Body

open Idealize.ShloMosaic Idealize.ShloMosaic.ValueIdx Cert.KernelIdeal Cert.KernelIdeal.Gen Cert.Sage
open Cert.Proof.LibBlockReads

/-- The first body: entry `(p, q)` of what it stores. -/
theorem pay0_apply (v0 : Vec Ideal S5000x32 .f32) (v2 : Vec Ideal S5000x1 .f32) (v4 : Vec Ideal S5000x32 .f32)
    (v11 : Vec Ideal S16x32 .f32) (v13 : Vec Ideal S16x32 .f32) (v20 : Vec Ideal S1x16 .f32) (p : Fin 5000) (q : Fin 16) :
    k0_pay1 (F := Ideal) v0 v2 v4 v11 v13 v20 (ix2 p q) = max (linAt v0 v2 v4 v11 v20 v13 p q) zero := by
  unfold k0_pay1 linAt mean
  simp only [maximumf_apply, addf_apply, broadcast_apply]
  rw [matmul_transposed dot_S5000x32_S32x16_S5000x16_1_0_0_1_n_n rfl, matmul_transposed dot_S5000x32_S32x16_S5000x16_1_0_0_1_n_n rfl,
    row_repeated]
  simp only [truncf_apply, divf_apply, shapeCast_self, column_repeated, maximumf_apply, broadcast_apply]
  rfl

/-- The second body: entry `(p, q)` of what it stores. -/
theorem pay1_apply (v0 : Vec Ideal S5000x16 .f32) (v2 : Vec Ideal S5000x1 .f32) (v4 : Vec Ideal S5000x16 .f32)
    (v12 : Vec Ideal S32x16 .f32) (v14 : Vec Ideal S32x16 .f32) (v21 : Vec Ideal S1x32 .f32) (p : Fin 5000) (q : Fin 32) :
    k1_pay1 (F := Ideal) v0 v2 v4 v12 v14 v21 (ix2 p q) = linAt v0 v2 v4 v12 v21 v14 p q := by
  unfold k1_pay1 linAt mean
  simp only [addf_apply]
  rw [matmul_transposed dot_S5000x16_S16x32_S5000x32_1_0_0_1_n_n rfl, matmul_transposed dot_S5000x16_S16x32_S5000x32_1_0_0_1_n_n rfl,
    row_repeated]
  simp only [truncf_apply, divf_apply, shapeCast_self, column_repeated, maximumf_apply, broadcast_apply]
  rfl

end Cert.Sage.Body

end
-- ==== Proof.Region0.lean ====
/-
  The first tiled call: what its output array holds once every grid point has written back.

  Grid point `t` (of 20) loads rows `5000·t … 5000·t + 4999` of the summed neighbour rows, of the neighbour
  counts and of the nodes' own rows, and the two weight matrices and the bias row whole; it writes rows
  `5000·t … 5000·t + 4999` of the output.  By row-locality of the layer (`Sage.linAt_rows`) what it writes
  is that block of rows of the layer of the whole arrays, and the 20 blocks cover all 100000 rows.  So the
  output array ends as the layer (followed by the maximum with zero) of the arrays the call was entered with.
-/
import proofs.«133266_j26216480375160_2_alg».proof.Proof.Gen.KernelIdeal.Frame
import proofs.«133266_j26216480375160_2_alg».proof.Proof.KernelBody

set_option maxRecDepth 16384

noncomputable section

namespace Cert.Sage.Region0

open Idealize.ShloMosaic Idealize.ShloMosaic.TcCoe Idealize.ShloMosaic.ValueIdx
open Idealize.SL.Sem
open Idealize.ShloMosaic.Pipeline (Dat)
open Cert.KernelIdeal Cert.KernelIdeal.Gen Cert.Sage

/-- Rows `5000·t + r` stay inside the 100000 rows for the 20 grid points. -/
theorem row_lt {t r : ℕ} (ht : t < 20) (hr : r < 5000) : 5000 * t + r < 100000 := by omega

/-- One block: if the loaded row blocks are rows `5000·t + ·` of three arrays, entry `(r, q)` of what the body
    stores is entry `(5000·t + r, q)` of the layer of those arrays (with the weights and bias as loaded). -/
theorem block_entry (x0 : Vec Ideal S5000x32 .f32) (x1 : Vec Ideal S5000x1 .f32) (x2 : Vec Ideal S5000x32 .f32)
    (x3 : Vec Ideal S16x32 .f32) (x4 : Vec Ideal S1x16 .f32) (x5 : Vec Ideal S16x32 .f32)
    (A0 : Mat 100000 32) (A1 : Mat 100000 1) (A2 : Mat 100000 32) (t : ℕ) (ht : t < 20)
    (h0 : ∀ (r : Fin 5000) (c : Fin 32), x0 (ix2 r c) = A0 (ix2 ⟨5000 * t + r.val, row_lt ht r.isLt⟩ c))
    (h1 : ∀ r : Fin 5000, x1 (ix2 r (0 : Fin 1)) = A1 (ix2 ⟨5000 * t + r.val, row_lt ht r.isLt⟩ (0 : Fin 1)))
    (h2 : ∀ (r : Fin 5000) (c : Fin 32), x2 (ix2 r c) = A2 (ix2 ⟨5000 * t + r.val, row_lt ht r.isLt⟩ c))
    (r : Fin 5000) (q : Fin 16) :
    k0_pay1 (F := Ideal) x0 x1 x2 x3 x5 x4 (ix2 r q)
      = linRelu A0 A1 A2 x3 x4 x5 (ix2 ⟨5000 * t + r.val, row_lt ht r.isLt⟩ q) := by
  rw [Body.pay0_apply, linRelu_ix2]
  exact congrArg (max · zero) (linAt_rows x0 x1 x2 A0 A1 A2 x3 x4 x5 r _ (h0 r) (h1 r) (h2 r) q)

variable (V : (c : Dev nD) → (b : Ref sig .tc) → Buf (Elt Ideal) ((c : Thread nD τ).loc b))

/-- The layer of the arrays the call is entered with. -/
def result (c : Dev nD) : Mat 100000 16 :=
  linRelu (V c main_v21) (V c main_v9) (V c main_arg0) (V c main_arg2) (V c main_v22) (V c main_arg4)

theorem origin : (![0, 0] : Fin 2 → Nat) = fun _ => 0 := funext fun a => by fin_cases a <;> rfl

/-- The printed index maps over the grid: the row blocks move with the grid point, the rest stay put. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 20 := by
  have h : cfg0.N = 20 := N_0
  have := t.isLt
  omega

/-- WHAT POINT `t` WRITES BACK is block `t` of `result`. -/
theorem flushed (c : Dev nD) (t : Fin cfg0.N) :
    (dat0 V c).flushed 6 t = ((cfg0.win 6).blk t).view.read (Elt Ideal) (result V c) := by
  show (cfg0.win 6).cut (grid0.coords t) ((dat0 V c).after 6 t) = _
  rw [after0_6]
  unfold out0_6
  rw [View.canon_unit_zero origin]
  simp only [View.ld_unit_zero (S := S5000x32) origin, View.ld_unit_zero (S := S5000x1) origin,
    View.ld_unit_zero (S := S16x32) origin, View.ld_unit_zero (S := S1x16) origin]
  obtain ⟨e00, e01, e10, e11, e20, e21, e30, e31, e40, e41, e50, e51, e60, e61⟩ := index_maps t
  have ht := point_lt t
  -- the three whole-array windows' blocks are the arrays
  have hw3 : iblk0 V c 3 t = V c main_arg2 := by
    refine funext fun (y : S16x32.Idx) => ?_
    show V c main_arg2 (((cfg0.win 3).blk t).view.emb y) = V c main_arg2 y
    refine congrArg _ (funext fun a => Fin.ext ?_)
    match a with
    | ⟨0, _⟩ => show win0_3.index t (0 : Fin 2) * 16 + 1 * (y 0).val = (y 0).val; omega
    | ⟨1, _⟩ => show win0_3.index t (1 : Fin 2) * 32 + 1 * (y 1).val = (y 1).val; omega
  have hw4 : iblk0 V c 4 t = V c main_v22 := by
    refine funext fun (y : S1x16.Idx) => ?_
    show V c main_v22 (((cfg0.win 4).blk t).view.emb y) = V c main_v22 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 16 + 1 * (y 1).val = (y 1).val; omega
  have hw5 : iblk0 V c 5 t = V c main_arg4 := by
    refine funext fun (y : S16x32.Idx) => ?_
    show V c main_arg4 (((cfg0.win 5).blk t).view.emb y) = V c main_arg4 y
    refine congrArg _ (funext fun a => Fin.ext ?_)
    match a with
    | ⟨0, _⟩ => show win0_5.index t (0 : Fin 2) * 16 + 1 * (y 0).val = (y 0).val; omega
    | ⟨1, _⟩ => show win0_5.index t (1 : Fin 2) * 32 + 1 * (y 1).val = (y 1).val; omega
  -- the three row windows' blocks are rows 5000·t + · of their arrays
  have hb0 : ∀ (r : Fin 5000) (k : Fin 32), iblk0 V c 0 t (ix2 r k) = V c main_v21 (ix2 ⟨5000 * t.val + r.val, row_lt ht r.isLt⟩ k) := by
    intro r k
    show V c main_v21 (((cfg0.win 0).blk t).view.emb (ix2 r k)) = _
    refine congrArg _ (funext fun a => Fin.ext ?_)
    match a with
    | ⟨0, _⟩ => show win0_0.index t (0 : Fin 2) * 5000 + 1 * r.val = 5000 * t.val + r.val; omega
    | ⟨1, _⟩ => show win0_0.index t (1 : Fin 2) * 32 + 1 * k.val = k.val; omega
  have hb1 : ∀ r : Fin 5000, iblk0 V c 1 t (ix2 r (0 : Fin 1)) = V c main_v9 (ix2 ⟨5000 * t.val + r.val, row_lt ht r.isLt⟩ (0 : Fin 1)) := by
    intro r
    show V c main_v9 (((cfg0.win 1).blk t).view.emb (ix2 r (0 : Fin 1))) = _
    refine congrArg _ (funext fun a => Fin.ext ?_)
    match a with
    | ⟨0, _⟩ => show win0_1.index t (0 : Fin 2) * 5000 + 1 * r.val = 5000 * t.val + r.val; omega
    | ⟨1, _⟩ => show win0_1.index t (1 : Fin 2) * 1 + 1 * 0 = 0; omega
  have hb2 : ∀ (r : Fin 5000) (k : Fin 32), iblk0 V c 2 t (ix2 r k) = V c main_arg0 (ix2 ⟨5000 * t.val + r.val, row_lt ht r.isLt⟩ k) := by
    intro r k
    show V c main_arg0 (((cfg0.win 2).blk t).view.emb (ix2 r k)) = _
    refine congrArg _ (funext fun a => Fin.ext ?_)
    match a with
    | ⟨0, _⟩ => show win0_2.index t (0 : Fin 2) * 5000 + 1 * r.val = 5000 * t.val + r.val; omega
    | ⟨1, _⟩ => show win0_2.index t (1 : Fin 2) * 32 + 1 * k.val = k.val; omega
  refine funext fun (j : S5000x16.Idx) => ?_
  obtain ⟨r, q, rfl⟩ : ∃ (r : Fin 5000) (q : Fin 16), j = ix2 r q := ⟨j 0, j 1, eq_ix2 j⟩
  show k0_pay1 (F := Ideal) (iblk0 V c 0 t) (iblk0 V c 1 t) (iblk0 V c 2 t) (iblk0 V c 3 t) (iblk0 V c 5 t) (iblk0 V c 4 t) (ix2 r q)
    = result V c (((cfg0.win 6).blk t).view.emb (ix2 r q))
  have he : ((cfg0.win 6).blk t).view.emb (ix2 r q) = ix2 ⟨5000 * t.val + r.val, row_lt ht r.isLt⟩ q := by
    refine funext fun a => Fin.ext ?_
    match a with
    | ⟨0, _⟩ => show win0_6.index t (0 : Fin 2) * 5000 + 1 * r.val = 5000 * t.val + r.val; omega
    | ⟨1, _⟩ => show win0_6.index t (1 : Fin 2) * 16 + 1 * q.val = q.val; omega
  rw [he, hw3, hw4, hw5]
  exact block_entry _ _ _ _ _ _ (V c main_v21) (V c main_v9) (V c main_arg0) t.val ht hb0 hb1 hb2 r q

/-- An index of the output array is in point `t`'s block iff each coordinate is in the block's range. -/
theorem mem_block (t : Fin cfg0.N) (i : S100000x16.Idx) :
    i ∈ ((cfg0.win 6).blk t).view.set ↔ ∀ a : Fin 2, win0_6.index t a * S5000x16.size a ≤ (i a).val ∧ (i a).val < win0_6.index t a * S5000x16.size a + S5000x16.size a := by
  show i ∈ ((View.whole main_v23).slice (win0_6.rect t)).set ↔ _
  rw [View.set_slice_whole, Rect.mem_set_unit]
  exact Iff.rfl

/-- Row `p` is written by grid point `p / 5000`. -/
theorem covered (i : S100000x16.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 16 := (i 1).isLt
  refine ⟨⟨(i 0).val / 5000, by omega⟩, flush0_6 _, ?_⟩
  rw [mem_block]
  obtain ⟨-, -, -, -, -, -, -, -, -, -, -, -, e60, e61⟩ := index_maps ⟨(i 0).val / 5000, by omega⟩
  intro a
  match a with
  | ⟨0, _⟩ =>
    show win0_6.index ⟨(i 0).val / 5000, _⟩ (0 : Fin 2) * 5000 ≤ (i 0).val ∧ (i 0).val < win0_6.index ⟨(i 0).val / 5000, _⟩ (0 : Fin 2) * 5000 + 5000
    rw [e60]
    show (i 0).val / 5000 * 5000 ≤ (i 0).val ∧ (i 0).val < (i 0).val / 5000 * 5000 + 5000
    omega
  | ⟨1, _⟩ =>
    show win0_6.index ⟨(i 0).val / 5000, _⟩ (1 : Fin 2) * 16 ≤ (i 1).val ∧ (i 1).val < win0_6.index ⟨(i 0).val / 5000, _⟩ (1 : Fin 2) * 16 + 16
    rw [e61]
    omega

/-- THE OUTPUT ARRAY after the call: the layer of the arrays it was entered with. -/
theorem final (c : Dev nD) : (dat0 V c).arrAt 6 cfg0.N = result V c :=
  (dat0 V c).arrAt_eq_of_cover 6 (result V c) (fun t _ => flushed V c t) (fun i => covered i)

end Cert.Sage.Region0

end
-- ==== Proof.Region1.lean ====
/-
  The second tiled call: what its output array holds once every grid point has written back.

  As in the first call, grid point `t` (of 20) works on rows `5000·t … 5000·t + 4999`: here the summed
  neighbour rows and the nodes' own rows have 16 features and the output 32, and there is no maximum with
  zero.  What a point writes is its block of rows of the layer of the whole arrays (`Sage.linAt_rows`), and
  the 20 blocks cover all 100000 rows, so the output array ends as the layer of the arrays the call was
  entered with.
-/
import proofs.«133266_j26216480375160_2_alg».proof.Proof.Gen.KernelIdeal.Frame
import proofs.«133266_j26216480375160_2_alg».proof.Proof.KernelBody

set_option maxRecDepth 16384

noncomputable section

namespace Cert.Sage.Region1

open Idealize.ShloMosaic Idealize.ShloMosaic.TcCoe Idealize.ShloMosaic.ValueIdx
open Idealize.SL.Sem
open Idealize.ShloMosaic.Pipeline (Dat)
open Cert.KernelIdeal Cert.KernelIdeal.Gen Cert.Sage

/-- Rows `5000·t + r` stay inside the 100000 rows for the 20 grid points. -/
theorem row_lt {t r : ℕ} (ht : t < 20) (hr : r < 5000) : 5000 * t + r < 100000 := by omega

/-- One block: if the loaded row blocks are rows `5000·t + ·` of three arrays, entry `(r, q)` of what the body
    stores is entry `(5000·t + r, q)` of the layer of those arrays (with the weights and bias as loaded). -/
theorem block_entry (x0 : Vec Ideal S5000x16 .f32) (x1 : Vec Ideal S5000x1 .f32) (x2 : Vec Ideal S5000x16 .f32)
    (x3 : Vec Ideal S32x16 .f32) (x4 : Vec Ideal S1x32 .f32) (x5 : Vec Ideal S32x16 .f32)
    (A0 : Mat 100000 16) (A1 : Mat 100000 1) (A2 : Mat 100000 16) (t : ℕ) (ht : t < 20)
    (h0 : ∀ (r : Fin 5000) (c : Fin 16), x0 (ix2 r c) = A0 (ix2 ⟨5000 * t + r.val, row_lt ht r.isLt⟩ c))
    (h1 : ∀ r : Fin 5000, x1 (ix2 r (0 : Fin 1)) = A1 (ix2 ⟨5000 * t + r.val, row_lt ht r.isLt⟩ (0 : Fin 1)))
    (h2 : ∀ (r : Fin 5000) (c : Fin 16), x2 (ix2 r c) = A2 (ix2 ⟨5000 * t + r.val, row_lt ht r.isLt⟩ c))
    (r : Fin 5000) (q : Fin 32) :
    k1_pay1 (F := Ideal) x0 x1 x2 x3 x5 x4 (ix2 r q)
      = lin A0 A1 A2 x3 x4 x5 (ix2 ⟨5000 * t + r.val, row_lt ht r.isLt⟩ q) := by
  rw [Body.pay1_apply, lin_ix2]
  exact linAt_rows x0 x1 x2 A0 A1 A2 x3 x4 x5 r _ (h0 r) (h1 r) (h2 r) q

variable (V : (c : Dev nD) → (b : Ref sig .tc) → Buf (Elt Ideal) ((c : Thread nD τ).loc b))

/-- The layer of the arrays the call is entered with. -/
def result (c : Dev nD) : Mat 100000 32 :=
  lin (V c main_v35) (V c main_v9) (V c main_v23) (V c main_arg5) (V c main_v36) (V c main_arg7)

theorem origin : (![0, 0] : Fin 2 → Nat) = fun _ => 0 := funext fun a => by fin_cases a <;> rfl

/-- The printed index maps over the grid: the row blocks move with the grid point, the rest stay put. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 20 := by
  have h : cfg1.N = 20 := N_1
  have := t.isLt
  omega

/-- WHAT POINT `t` WRITES BACK is block `t` of `result`. -/
theorem flushed (c : Dev nD) (t : Fin cfg1.N) :
    (dat1 V c).flushed 6 t = ((cfg1.win 6).blk t).view.read (Elt Ideal) (result V c) := by
  show (cfg1.win 6).cut (grid1.coords t) ((dat1 V c).after 6 t) = _
  rw [after1_6]
  unfold out1_6
  rw [View.canon_unit_zero origin]
  simp only [View.ld_unit_zero (S := S5000x16) origin, View.ld_unit_zero (S := S5000x1) origin,
    View.ld_unit_zero (S := S32x16) origin, View.ld_unit_zero (S := S1x32) origin]
  obtain ⟨e00, e01, e10, e11, e20, e21, e30, e31, e40, e41, e50, e51, e60, e61⟩ := index_maps t
  have ht := point_lt t
  -- the three whole-array windows' blocks are the arrays
  have hw3 : iblk1 V c 3 t = V c main_arg5 := by
    refine funext fun (y : S32x16.Idx) => ?_
    show V c main_arg5 (((cfg1.win 3).blk t).view.emb y) = V c main_arg5 y
    refine congrArg _ (funext fun a => Fin.ext ?_)
    match a with
    | ⟨0, _⟩ => show win1_3.index t (0 : Fin 2) * 32 + 1 * (y 0).val = (y 0).val; omega
    | ⟨1, _⟩ => show win1_3.index t (1 : Fin 2) * 16 + 1 * (y 1).val = (y 1).val; omega
  have hw4 : iblk1 V c 4 t = V c main_v36 := by
    refine funext fun (y : S1x32.Idx) => ?_
    show V c main_v36 (((cfg1.win 4).blk t).view.emb y) = V c main_v36 y
    refine congrArg _ (funext fun a => Fin.ext ?_)
    match a with
    | ⟨0, _⟩ => show win1_4.index t (0 : Fin 2) * 1 + 1 * (y 0).val = (y 0).val; omega
    | ⟨1, _⟩ => show win1_4.index t (1 : Fin 2) * 32 + 1 * (y 1).val = (y 1).val; omega
  have hw5 : iblk1 V c 5 t = V c main_arg7 := by
    refine funext fun (y : S32x16.Idx) => ?_
    show V c main_arg7 (((cfg1.win 5).blk t).view.emb y) = V c main_arg7 y
    refine congrArg _ (funext fun a => Fin.ext ?_)
    match a with
    | ⟨0, _⟩ => show win1_5.index t (0 : Fin 2) * 32 + 1 * (y 0).val = (y 0).val; omega
    | ⟨1, _⟩ => show win1_5.index t (1 : Fin 2) * 16 + 1 * (y 1).val = (y 1).val; omega
  -- the three row windows' blocks are rows 5000·t + · of their arrays
  have hb0 : ∀ (r : Fin 5000) (k : Fin 16), iblk1 V c 0 t (ix2 r k) = V c main_v35 (ix2 ⟨5000 * t.val + r.val, row_lt ht r.isLt⟩ k) := by
    intro r k
    show V c main_v35 (((cfg1.win 0).blk t).view.emb (ix2 r k)) = _
    refine congrArg _ (funext fun a => Fin.ext ?_)
    match a with
    | ⟨0, _⟩ => show win1_0.index t (0 : Fin 2) * 5000 + 1 * r.val = 5000 * t.val + r.val; omega
    | ⟨1, _⟩ => show win1_0.index t (1 : Fin 2) * 16 + 1 * k.val = k.val; omega
  have hb1 : ∀ r : Fin 5000, iblk1 V c 1 t (ix2 r (0 : Fin 1)) = V c main_v9 (ix2 ⟨5000 * t.val + r.val, row_lt ht r.isLt⟩ (0 : Fin 1)) := by
    intro r
    show V c main_v9 (((cfg1.win 1).blk t).view.emb (ix2 r (0 : Fin 1))) = _
    refine congrArg _ (funext fun a => Fin.ext ?_)
    match a with
    | ⟨0, _⟩ => show win1_1.index t (0 : Fin 2) * 5000 + 1 * r.val = 5000 * t.val + r.val; omega
    | ⟨1, _⟩ => show win1_1.index t (1 : Fin 2) * 1 + 1 * 0 = 0; omega
  have hb2 : ∀ (r : Fin 5000) (k : Fin 16), iblk1 V c 2 t (ix2 r k) = V c main_v23 (ix2 ⟨5000 * t.val + r.val, row_lt ht r.isLt⟩ k) := by
    intro r k
    show V c main_v23 (((cfg1.win 2).blk t).view.emb (ix2 r k)) = _
    refine congrArg _ (funext fun a => Fin.ext ?_)
    match a with
    | ⟨0, _⟩ => show win1_2.index t (0 : Fin 2) * 5000 + 1 * r.val = 5000 * t.val + r.val; omega
    | ⟨1, _⟩ => show win1_2.index t (1 : Fin 2) * 16 + 1 * k.val = k.val; omega
  refine funext fun (j : S5000x32.Idx) => ?_
  obtain ⟨r, q, rfl⟩ : ∃ (r : Fin 5000) (q : Fin 32), j = ix2 r q := ⟨j 0, j 1, eq_ix2 j⟩
  show k1_pay1 (F := Ideal) (iblk1 V c 0 t) (iblk1 V c 1 t) (iblk1 V c 2 t) (iblk1 V c 3 t) (iblk1 V c 5 t) (iblk1 V c 4 t) (ix2 r q)
    = result V c (((cfg1.win 6).blk t).view.emb (ix2 r q))
  have he : ((cfg1.win 6).blk t).view.emb (ix2 r q) = ix2 ⟨5000 * t.val + r.val, row_lt ht r.isLt⟩ q := by
    refine funext fun a => Fin.ext ?_
    match a with
    | ⟨0, _⟩ => show win1_6.index t (0 : Fin 2) * 5000 + 1 * r.val = 5000 * t.val + r.val; omega
    | ⟨1, _⟩ => show win1_6.index t (1 : Fin 2) * 32 + 1 * q.val = q.val; omega
  rw [he, hw3, hw4, hw5]
  exact block_entry _ _ _ _ _ _ (V c main_v35) (V c main_v9) (V c main_v23) t.val ht hb0 hb1 hb2 r q

/-- An index of the output array is in point `t`'s block iff each coordinate is in the block's range. -/
theorem mem_block (t : Fin cfg1.N) (i : S100000x32.Idx) :
    i ∈ ((cfg1.win 6).blk t).view.set ↔ ∀ a : Fin 2, win1_6.index t a * S5000x32.size a ≤ (i a).val ∧ (i a).val < win1_6.index t a * S5000x32.size a + S5000x32.size a := by
  show i ∈ ((View.whole main_v37).slice (win1_6.rect t)).set ↔ _
  rw [View.set_slice_whole, Rect.mem_set_unit]
  exact Iff.rfl

/-- Row `p` is written by grid point `p / 5000`. -/
theorem covered (i : S100000x32.Idx) :
    ∃ t : Fin cfg1.N, (cfg1.win 6).flush t = true ∧ i ∈ ((cfg1.win 6).blk t).view.set := by
  have hN : cfg1.N = 20 := N_1
  have hi0 : (i 0).val < 100000 := (i 0).isLt
  have hi1 : (i 1).val < 32 := (i 1).isLt
  refine ⟨⟨(i 0).val / 5000, by omega⟩, flush1_6 _, ?_⟩
  rw [mem_block]
  obtain ⟨-, -, -, -, -, -, -, -, -, -, -, -, e60, e61⟩ := index_maps ⟨(i 0).val / 5000, by omega⟩
  intro a
  match a with
  | ⟨0, _⟩ =>
    show win1_6.index ⟨(i 0).val / 5000, _⟩ (0 : Fin 2) * 5000 ≤ (i 0).val ∧ (i 0).val < win1_6.index ⟨(i 0).val / 5000, _⟩ (0 : Fin 2) * 5000 + 5000
    rw [e60]
    show (i 0).val / 5000 * 5000 ≤ (i 0).val ∧ (i 0).val < (i 0).val / 5000 * 5000 + 5000
    omega
  | ⟨1, _⟩ =>
    show win1_6.index ⟨(i 0).val / 5000, _⟩ (1 : Fin 2) * 32 ≤ (i 1).val ∧ (i 1).val < win1_6.index ⟨(i 0).val / 5000, _⟩ (1 : Fin 2) * 32 + 32
    rw [e61]
    omega

/-- THE OUTPUT ARRAY after the call: the layer of the arrays it was entered with. -/
theorem final (c : Dev nD) : (dat1 V c).arrAt 6 cfg1.N = result V c :=
  (dat1 V c).arrAt_eq_of_cover 6 (result V c) (fun t _ => flushed V c t) (fun i => covered i)

end Cert.Sage.Region1

end
-- ==== Proof.HostGlue.lean ====
/-
  The irregular part of the computation, named once.

  The edge list `e` (two rows of 1600000 node indices) gives each edge a source and a destination node.  A
  node's neighbour count is the number of edges that end in it: ones added at the destinations into a zero
  vector.  A node's summed neighbour row is the sum, over the edges that end in it, of the source's feature
  row: the rows gathered at the sources (a negative source index counted from the end) added at the
  destinations into a zero matrix.  Narrowing the gathered rows to a shorter float format and widening them
  again is the identity on extended reals, so it does not appear here.
-/
import proofs.«133266_j26216480375160_2_alg».proof.Proof.Gen.KernelIdeal
import proofs.«133266_j26216480375160_2_alg».proof.Proof.SageLayer

noncomputable section

namespace Cert.Sage.Glue

open Idealize.ShloMosaic Cert.KernelIdeal Cert.KernelIdeal.Facts₀ Cert.Sage

/-- The edge list as launched: one leading unit axis, then sources and destinations. -/
abbrev Edges : Type := IVec S1x2x1600000 32

/-- The source node of each edge. -/
def src (e : Edges) : IVec S1600000 32 :=
  shapeCast S1600000 (extractStridedSlice S1x1600000 ![0, 0] (shapeCast S2x1600000 e shapeCasts_S1x2x1600000_S2x1600000)
    slices_S2x1600000_S1x1600000_0_0) shapeCasts_S1x1600000_S1600000

/-- The destination node of each edge. -/
def dst (e : Edges) : IVec S1600000 32 :=
  shapeCast S1600000 (extractStridedSlice S1x1600000 ![1, 0] (shapeCast S2x1600000 e shapeCasts_S1x2x1600000_S2x1600000)
    slices_S2x1600000_S1x1600000_1_0) shapeCasts_S1x1600000_S1600000

/-- The sources as a column of row indices, a negative index counted from the end of the 100000 rows. -/
def srcCol (e : Edges) : IVec S1600000x1 32 :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 100000#32))) (src e))

/-- The destinations as a column of row indices. -/
def dstCol (e : Edges) : IVec S1600000x1 32 :=
  broadcastInDim S1600000x1 ![0] bcast_S1600000_S1600000x1_0 (dst e)

/-- Each node's neighbour count. -/
def degVec (e : Edges) : FVec Ideal S100000 .f32 :=
  Host.scatterAdd (F := Ideal) scatter_S100000_S1600000x1_S1600000_n_0_0_1
    (broadcastInDim S100000 ![] bcast_S_S100000 (constant (F := Ideal) S_ .f32 0x00000000#32)) (dstCol e)
    (broadcastInDim S1600000 ![] bcast_S_S1600000 (constant (F := Ideal) S_ .f32 0x3F800000#32))

/-- The neighbour counts as a column. -/
def degCol (e : Edges) : Mat 100000 1 :=
  broadcastInDim S100000x1 ![0] bcast_S100000_S100000x1_0 (degVec e)

/-- Each node's summed neighbour row, for rows of 32 features. -/
def agg32 (e : Edges) (x : Mat 100000 32) : Mat 100000 32 :=
  Host.scatterAdd (F := Ideal) (φ := .f32) scatter_S100000x32_S1600000x1_S1600000x32_1_0_0_1
    (broadcastInDim S100000x32 ![] bcast_S_S100000x32 (constant (F := Ideal) S_ .f32 0x00000000#32)) (dstCol e)
    (Host.gather gather_S100000x32_S1600000x1_S1600000x32_1_0_n_n_0_1_132 x (srcCol e))

/-- Each node's summed neighbour row, for rows of 16 features. -/
def agg16 (e : Edges) (h : Mat 100000 16) : Mat 100000 16 :=
  Host.scatterAdd (F := Ideal) (φ := .f32) scatter_S100000x16_S1600000x1_S1600000x16_1_0_0_1
    (broadcastInDim S100000x16 ![] bcast_S_S100000x16 (constant (F := Ideal) S_ .f32 0x00000000#32)) (dstCol e)
    (Host.gather gather_S100000x16_S1600000x1_S1600000x16_1_0_n_n_0_1_116 h (srcCol e))

/-- A bias vector as a one-row matrix (16 and 32 entries). -/
def biasRow16 (b : FVec Ideal S16 .f32) : Mat 1 16 := shapeCast S1x16 b shapeCasts_S16_S1x16
def biasRow32 (b : FVec Ideal S32 .f32) : Mat 1 32 := shapeCast S1x32 b shapeCasts_S32_S1x32

/-- The first layer's output: the layer of the summed neighbour rows, the counts and the features, then the
    maximum with zero. -/
def hidden (e : Edges) (x : Mat 100000 32) (wl1 : Mat 16 32) (b1 : FVec Ideal S16 .f32) (wr1 : Mat 16 32) : Mat 100000 16 :=
  linRelu (agg32 e x) (degCol e) x wl1 (biasRow16 b1) wr1

/-- The network's output: the second layer applied to the first layer's output. -/
def output (e : Edges) (x : Mat 100000 32) (wl1 : Mat 16 32) (b1 : FVec Ideal S16 .f32) (wr1 : Mat 16 32)
    (wl2 : Mat 32 16) (b2 : FVec Ideal S32 .f32) (wr2 : Mat 32 16) : Mat 100000 32 :=
  lin (agg16 e (hidden e x wl1 b1 wr1)) (degCol e) (hidden e x wl1 b1 wr1) wl2 (biasRow32 b2) wr2

end Cert.Sage.Glue

end
-- ==== Proof.KernelValue.lean ====
/-
  The value the kernel program's result buffer ends with, as the two-layer network of the launch arrays.

  Reading the fold of the program's four segments backwards from the result:
  the second tiled call leaves the layer of the arrays it was entered with (`Region1.final`); those are, through
  the second stretch of host operations, the summed neighbour rows of the first call's output, the neighbour
  counts, the first call's output itself, and the second layer's weights and bias row; the first call's
  output is the layer-with-maximum of the arrays IT was entered with (`Region0.final`), which the first
  stretch of host operations computed from the launch arrays: the summed neighbour rows of the features, the
  neighbour counts, the features, and the first layer's weights and bias row.  An array no segment writes
  is read back unchanged through every segment after the one that made it.
-/
import proofs.«133266_j26216480375160_2_alg».proof.Proof.Gen.KernelIdeal.Frame
import proofs.«133266_j26216480375160_2_alg».proof.Proof.Region0
import proofs.«133266_j26216480375160_2_alg».proof.Proof.Region1
import proofs.«133266_j26216480375160_2_alg».proof.Proof.HostGlue
import Idealize.ShloMosaic.Lib.StableHlo.Run

set_option maxRecDepth 16384

noncomputable section

namespace Cert.Sage.Value

open Idealize.ShloMosaic Idealize.ShloMosaic.TcCoe Idealize.SL.Sem Idealize.ShloMosaic.StableHlo
open Cert.KernelIdeal Cert.KernelIdeal.Gen Cert.Sage Cert.Sage.Glue

variable {s : Shape} {φ ψ : FTy}

/-- Narrowing a float array to a shorter format, and widening it to a longer one, change no extended real. -/
theorem narrow_id (a : FVec Ideal s φ) (h : ψ.bits < φ.bits) : (truncf ψ a h : FVec Ideal s ψ) = a := rfl
theorem widen_id (a : FVec Ideal s φ) (h : φ.bits < ψ.bits) : (extf ψ a h : FVec Ideal s ψ) = a := rfl

variable (m : (ℓ : Loc nD τ sig) → Buf (Elt Ideal) ℓ) (ρ : Dev nD → PrngReg)

/-- The launch arrays. -/
abbrev feat (c : Dev nD) : Mat 100000 32 := m ((c : Thread nD τ).loc main_arg0)
abbrev edges (c : Dev nD) : Edges := m ((c : Thread nD τ).loc main_arg1)
abbrev wl1 (c : Dev nD) : Mat 16 32 := m ((c : Thread nD τ).loc main_arg2)
abbrev b1 (c : Dev nD) : FVec Ideal S16 .f32 := m ((c : Thread nD τ).loc main_arg3)
abbrev wr1 (c : Dev nD) : Mat 16 32 := m ((c : Thread nD τ).loc main_arg4)
abbrev wl2 (c : Dev nD) : Mat 32 16 := m ((c : Thread nD τ).loc main_arg5)
abbrev b2 (c : Dev nD) : FVec Ideal S32 .f32 := m ((c : Thread nD τ).loc main_arg6)
abbrev wr2 (c : Dev nD) : Mat 32 16 := m ((c : Thread nD τ).loc main_arg7)

/-! ## What the first call is entered with -/

theorem entry0_msg (c : Dev nD) : V1 m ρ c main_v21 = agg32 (edges m c) (feat m c) := by
  show StableHlo.after hostOps0 (W0 m ρ c) (Proc.devRef .tc main_v21) = _
  after_results_simp
  rw [widen_id, narrow_id]
  rfl

theorem entry0_deg (c : Dev nD) : V1 m ρ c main_v9 = degCol (edges m c) := by
  show StableHlo.after hostOps0 (W0 m ρ c) (Proc.devRef .tc main_v9) = _
  after_results <;> rfl

theorem entry0_bias (c : Dev nD) : V1 m ρ c main_v22 = biasRow16 (b1 m c) := by
  show StableHlo.after hostOps0 (W0 m ρ c) (Proc.devRef .tc main_v22) = _
  after_results <;> rfl

theorem entry0_feat (c : Dev nD) : V1 m ρ c main_arg0 = feat m c := by
  show StableHlo.after hostOps0 (W0 m ρ c) (Proc.devRef .tc main_arg0) = _
  after_results <;> rfl

theorem entry0_wl (c : Dev nD) : V1 m ρ c main_arg2 = wl1 m c := by
  show StableHlo.after hostOps0 (W0 m ρ c) (Proc.devRef .tc main_arg2) = _
  after_results <;> rfl

theorem entry0_wr (c : Dev nD) : V1 m ρ c main_arg4 = wr1 m c := by
  show StableHlo.after hostOps0 (W0 m ρ c) (Proc.devRef .tc main_arg4) = _
  after_results <;> rfl

/-! ## What the first call leaves, and what survives it -/

/-- The first call's output array after the call: the first layer's output. -/
theorem after0_hidden (c : Dev nD) :
    W2 m ρ c (Proc.devRef .tc main_v23) = Glue.hidden (edges m c) (feat m c) (wl1 m c) (b1 m c) (wr1 m c) :=
  (W2_arr m ρ c 6).trans ((Region0.final (V1 m ρ) c).trans (by
    unfold Region0.result Glue.hidden
    rw [entry0_msg, entry0_deg, entry0_feat, entry0_wl, entry0_bias, entry0_wr]))

/-- The neighbour counts are an input of the first call: it leaves them as it found them. -/
theorem after0_deg (c : Dev nD) : W2 m ρ c (Proc.devRef .tc main_v9) = degCol (edges m c) :=
  (W2_arr m ρ c 1).trans (((dat0 (V1 m ρ) c).arrAt_in 1 rfl _).trans ((A_eq0 (V1 m ρ) c 1).trans (entry0_deg m ρ c)))

/-- The edges' sources and destinations are not arrays of the first call. -/
theorem after0_src (c : Dev nD) : W2 m ρ c (Proc.devRef .tc main_v2) = src (edges m c) :=
  (W2_of_ne m ρ c main_v2 (by decide)).trans (by
    show StableHlo.after hostOps0 (W0 m ρ c) (Proc.devRef .tc main_v2) = _
    after_results <;> rfl)

theorem after0_dst (c : Dev nD) : W2 m ρ c (Proc.devRef .tc main_v4) = dst (edges m c) :=
  (W2_of_ne m ρ c main_v4 (by decide)).trans (by
    show StableHlo.after hostOps0 (W0 m ρ c) (Proc.devRef .tc main_v4) = _
    after_results <;> rfl)

/-- Nor are the second layer's weights and bias. -/
theorem after0_wl2 (c : Dev nD) : W2 m ρ c (Proc.devRef .tc main_arg5) = wl2 m c :=
  (W2_of_ne m ρ c main_arg5 (by decide)).trans (by
    show StableHlo.after hostOps0 (W0 m ρ c) (Proc.devRef .tc main_arg5) = _
    after_results <;> rfl)

theorem after0_b2 (c : Dev nD) : W2 m ρ c (Proc.devRef .tc main_arg6) = b2 m c :=
  (W2_of_ne m ρ c main_arg6 (by decide)).trans (by
    show StableHlo.after hostOps0 (W0 m ρ c) (Proc.devRef .tc main_arg6) = _
    after_results <;> rfl)

theorem after0_wr2 (c : Dev nD) : W2 m ρ c (Proc.devRef .tc main_arg7) = wr2 m c :=
  (W2_of_ne m ρ c main_arg7 (by decide)).trans (by
    show StableHlo.after hostOps0 (W0 m ρ c) (Proc.devRef .tc main_arg7) = _
    after_results <;> rfl)

/-! ## What the second call is entered with -/

theorem entry1_msg (c : Dev nD) :
    V3 m ρ c main_v35 = agg16 (edges m c) (Glue.hidden (edges m c) (feat m c) (wl1 m c) (b1 m c) (wr1 m c)) := by
  show StableHlo.after hostOps1 (W2 m ρ c) (Proc.devRef .tc main_v35) = _
  after_results_simp
  rw [after0_hidden, after0_src, after0_dst, widen_id, narrow_id]
  rfl

theorem entry1_deg (c : Dev nD) : V3 m ρ c main_v9 = degCol (edges m c) := by
  show StableHlo.after hostOps1 (W2 m ρ c) (Proc.devRef .tc main_v9) = _
  after_results
  exact after0_deg m ρ c

theorem entry1_hidden (c : Dev nD) :
    V3 m ρ c main_v23 = Glue.hidden (edges m c) (feat m c) (wl1 m c) (b1 m c) (wr1 m c) := by
  show StableHlo.after hostOps1 (W2 m ρ c) (Proc.devRef .tc main_v23) = _
  after_results
  exact after0_hidden m ρ c

theorem entry1_wl (c : Dev nD) : V3 m ρ c main_arg5 = wl2 m c := by
  show StableHlo.after hostOps1 (W2 m ρ c) (Proc.devRef .tc main_arg5) = _
  after_results
  exact after0_wl2 m ρ c

theorem entry1_wr (c : Dev nD) : V3 m ρ c main_arg7 = wr2 m c := by
  show StableHlo.after hostOps1 (W2 m ρ c) (Proc.devRef .tc main_arg7) = _
  after_results
  exact after0_wr2 m ρ c

theorem entry1_bias (c : Dev nD) : V3 m ρ c main_v36 = biasRow32 (b2 m c) := by
  show StableHlo.after hostOps1 (W2 m ρ c) (Proc.devRef .tc main_v36) = _
  after_results
  rw [after0_b2]
  rfl

/-! ## The result -/

/-- The result buffer's last contents: the network's output of the launch arrays. -/
theorem result_eq (c : Dev nD) :
    W4 m ρ c (Proc.devRef .tc main_v37)
      = Glue.output (edges m c) (feat m c) (wl1 m c) (b1 m c) (wr1 m c) (wl2 m c) (b2 m c) (wr2 m c) :=
  (W4_arr m ρ c 6).trans ((Region1.final (V3 m ρ) c).trans (by
    unfold Region1.result Glue.output
    rw [entry1_msg, entry1_deg, entry1_hidden, entry1_wl, entry1_bias, entry1_wr]))

end Cert.Sage.Value

end
-- ==== Proof.LibBroadcasts.lean ====
/-
  Broadcasts read at an index, for the few forms a host program over vectors and matrices uses.

  A broadcast copies the operand along the axes it adds and along the operand's axes of extent one.  So a scalar
  broadcast to any shape has the scalar everywhere; a vector of m entries made a column [m, 1] has entry e at (e, 0);
  a column [m, 1] widened to [m, q] has entry (e, 0) at (e, c); a vector of q entries made a row [1, q] has entry c
  at (0, c); and a row [1, q] repeated to [n, q] has entry (0, c) at (p, c).
-/
import Idealize.ShloMosaic.Lib.ValueIdx
import Idealize.ShloMosaic.Lib.Pipeline.Value

noncomputable section

namespace Broadcasts

open Idealize.ShloMosaic Idealize.ShloMosaic.ValueIdx

variable {α : Type}

/-- A scalar broadcast to any shape reads the scalar at every index. -/
theorem scalar_apply (t : Shape) (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A vector made a column reads entry e at (e, 0). -/
theorem column_apply {m : Nat} (h : (⟨1, ![m]⟩ : Shape).BroadcastsInDim ⟨2, ![m, 1]⟩ (![0] : Fin 1 → Fin 2))
    (x : (⟨1, ![m]⟩ : Shape).Idx → α) (e : Fin m) :
    broadcastInDim (⟨2, ![m, 1]⟩ : Shape) ![0] h x (ix2 e (0 : Fin 1)) = x (ix1 e) :=
  broadcastInDim_apply _ h x _ (ix1 e) (fun a => match a with
    | ⟨0, _⟩ => by
      show e.val = if m = 1 then 0 else e.val
      split
      · have := e.isLt; omega
      · rfl)

/-- A column widened to q columns reads entry (e, 0) at (e, c). -/
theorem widen_apply {m q : Nat} (h : (⟨2, ![m, 1]⟩ : Shape).BroadcastsInDim ⟨2, ![m, q]⟩ (![0, 1] : Fin 2 → Fin 2))
    (x : (⟨2, ![m, 1]⟩ : Shape).Idx → α) (e : Fin m) (c : Fin q) :
    broadcastInDim (⟨2, ![m, q]⟩ : Shape) ![0, 1] h x (ix2 e c) = x (ix2 e (0 : Fin 1)) :=
  broadcastInDim_apply _ h x _ (ix2 e (0 : Fin 1)) (fun a => match a with
    | ⟨0, _⟩ => by
      show e.val = if m = 1 then 0 else e.val
      split
      · have := e.isLt; omega
      · rfl
    | ⟨1, _⟩ => by
      show 0 = if (1 : Nat) = 1 then 0 else c.val
      rw [if_pos rfl])

/-- A vector made a row reads entry c at (0, c). -/
theorem row_apply {q : Nat} (h : (⟨1, ![q]⟩ : Shape).BroadcastsInDim ⟨2, ![1, q]⟩ (![1] : Fin 1 → Fin 2))
    (x : (⟨1, ![q]⟩ : Shape).Idx → α) (c : Fin q) :
    broadcastInDim (⟨2, ![1, q]⟩ : Shape) ![1] h x (ix2 (0 : Fin 1) c) = x (ix1 c) :=
  broadcastInDim_apply _ h x _ (ix1 c) (fun a => match a with
    | ⟨0, _⟩ => by
      show c.val = if q = 1 then 0 else c.val
      split
      · have := c.isLt; omega
      · rfl)

/-- A row repeated n times reads entry (0, c) at (p, c). -/
theorem repeat_apply {n q : Nat} (h : (⟨2, ![1, q]⟩ : Shape).BroadcastsInDim ⟨2, ![n, q]⟩ (![0, 1] : Fin 2 → Fin 2))
    (x : (⟨2, ![1, q]⟩ : Shape).Idx → α) (p : Fin n) (c : Fin q) :
    broadcastInDim (⟨2, ![n, q]⟩ : Shape) ![0, 1] h x (ix2 p c) = x (ix2 (0 : Fin 1) c) :=
  broadcastInDim_apply _ h x _ (ix2 (0 : Fin 1) c) (fun a => match a with
    | ⟨0, _⟩ => by
      show 0 = if (1 : Nat) = 1 then 0 else p.val
      rw [if_pos rfl]
    | ⟨1, _⟩ => by
      show c.val = if q = 1 then 0 else c.val
      split
      · have := c.isLt; omega
      · rfl)

end Broadcasts

end
-- ==== Proof.Reference.lean ====
/-
  The reference program's result as the same two-layer network.

  The reference computes, for all 100000 nodes at once: the summed neighbour rows and the neighbour counts
  (the same gathers and additions at the destinations as `Glue` names); the counts raised to at least one,
  made a column and repeated along the features; the quotient; its product with the first weight matrix
  transposed; plus the bias row repeated down the nodes; plus the product of the features with the second
  weight matrix transposed; for the first layer the maximum with zero.  Entry `(p, q)` of that is
  `(∑ c, mean p c * Wl q c + b q) + ∑ c, x p c * Wr q c`, which is the layer `Sage.linAt` with the bias
  added between the two products instead of after them (`Sage.add_bias_mid`).
-/
import proofs.«133266_j26216480375160_2_alg».proof.Proof.Gen.ReferenceIdeal.Read
import proofs.«133266_j26216480375160_2_alg».proof.Proof.HostGlue
import proofs.«133266_j26216480375160_2_alg».proof.Proof.LibBroadcasts

set_option maxRecDepth 16384

noncomputable section

namespace Cert.Sage.Ref

open Idealize.ShloMosaic Idealize.ShloMosaic.ValueIdx
open Cert.ReferenceIdeal Cert.ReferenceIdeal.Read Cert.Sage

variable (x0 : Mat 100000 32) (x1 : Glue.Edges) (x2 : Mat 16 32) (x3 : FVec Ideal S16 .f32) (x4 : Mat 16 32)
  (x5 : Mat 32 16) (x6 : FVec Ideal S32 .f32) (x7 : Mat 32 16)

/-! ## The irregular stages are the named ones -/

theorem msg1_eq : val_main_v14 (F := Ideal) x0 x1 = Glue.agg32 x1 x0 := rfl
theorem deg1_eq : val_main_v18 (F := Ideal) x1 = Glue.degVec x1 := rfl
theorem deg2_eq : val_main_v46 (F := Ideal) x1 = Glue.degVec x1 := rfl
theorem msg2_eq : val_main_v42 (F := Ideal) x0 x1 x2 x3 x4 = Glue.agg16 x1 (val_main_v32 (F := Ideal) x0 x1 x2 x3 x4) := rfl

/-! ## Small reads -/

/-- The neighbour-count column at `(p, 0)` is the count of node `p`. -/
theorem degCol_at (p : Fin 100000) : Glue.degCol x1 (ix2 p (0 : Fin 1)) = Glue.degVec x1 (ix1 p) :=
  Broadcasts.column_apply _ (Glue.degVec x1) p

/-- A bias vector as a one-row matrix reads entry `q` at `(0, q)`. -/
theorem biasRow16_at (q : Fin 16) : Glue.biasRow16 x3 (ix2 (0 : Fin 1) q) = x3 (ix1 q) := by
  unfold Glue.biasRow16
  exact shapeCast_apply x3 _ _ (ix1 q) (by
    rw [Shape.rowMajor_val_two, Shape.rowMajor_val_one]; show q.val = 0 * 16 + q.val; omega)

theorem biasRow32_at (q : Fin 32) : Glue.biasRow32 x6 (ix2 (0 : Fin 1) q) = x6 (ix1 q) := by
  unfold Glue.biasRow32
  exact shapeCast_apply x6 _ _ (ix1 q) (by
    rw [Shape.rowMajor_val_two, Shape.rowMajor_val_one]; show q.val = 0 * 32 + q.val; omega)

/-! ## The first layer -/

theorem hidden_eq : val_main_v32 (F := Ideal) x0 x1 x2 x3 x4 = Glue.hidden x1 x0 x2 x3 x4 := by
  funext i
  obtain ⟨p, q, rfl⟩ : ∃ (p : Fin 100000) (q : Fin 16), i = ix2 p q := ⟨i 0, i 1, eq_ix2 i⟩
  -- the composed index functions of the stages, at (p, q) and contracted coordinate k
  have hl25 : ∀ k : Fin 32, lidx_main_v25 (ix2 p q) k = ix2 p k := fun k =>
    funext fun a => match a with | ⟨0, _⟩ => rfl | ⟨1, _⟩ => rfl
  have hr25 : ∀ k : Fin 32, idx_main_v24 (ridx_main_v25 (ix2 p q) k) = ix2 q k := fun k =>
    funext fun a => match a with | ⟨0, _⟩ => rfl | ⟨1, _⟩ => rfl
  have hd : ∀ k : Fin 32, idx_main_v21 (idx_main_v22 (ix2 p k)) = ix1 p := fun k =>
    funext fun a => match a with | ⟨0, _⟩ => rfl
  have hb : idx_main_v26 (idx_main_v27 (ix2 p q)) = ix1 q :=
    funext fun a => match a with | ⟨0, _⟩ => rfl
  have hl30 : ∀ k : Fin 32, lidx_main_v30 (ix2 p q) k = ix2 p k := fun k =>
    funext fun a => match a with | ⟨0, _⟩ => rfl | ⟨1, _⟩ => rfl
  have hr30 : ∀ k : Fin 32, idx_main_v29 (ridx_main_v30 (ix2 p q) k) = ix2 q k := fun k =>
    funext fun a => match a with | ⟨0, _⟩ => rfl | ⟨1, _⟩ => rfl
  rw [val_main_v32_apply, val_main_v31_apply, val_main_v28_apply, val_main_v25_apply, val_main_v30_apply,
    val_main_v27_apply, val_main_v26_apply, val_main_call0_v0_apply, val_main_call0_cst_apply]
  -- one term of each sum
  have hA : ∀ k : Fin 32, val_main_v23 (F := Ideal) x0 x1 (lidx_main_v25 (ix2 p q) k) * val_main_v24 (F := Ideal) x2 (ridx_main_v25 (ix2 p q) k)
      = mean (Glue.agg32 x1 x0) (Glue.degCol x1) p k * x2 (ix2 q k) := fun k => by
    rw [hl25 k, val_main_v24_apply, hr25 k, val_main_v23_apply, val_main_v22_apply, val_main_v21_apply, val_main_v20_apply,
      val_main_v19_apply, val_main_cst_3_apply, hd k, msg1_eq, deg1_eq]
    unfold mean
    rw [degCol_at]
    all_goals rfl
  have hB : ∀ k : Fin 32, x0 (lidx_main_v30 (ix2 p q) k) * val_main_v29 (F := Ideal) x4 (ridx_main_v30 (ix2 p q) k)
      = x0 (ix2 p k) * x4 (ix2 q k) := fun k => by
    rw [hl30 k, val_main_v29_apply, hr30 k]
  rw [Finset.sum_congr rfl (fun k _ => hA k), Finset.sum_congr rfl (fun k _ => hB k), hb]
  unfold Glue.hidden
  rw [linRelu_ix2]
  unfold linAt
  rw [biasRow16_at]
  exact congrArg (max · zero) (add_bias_mid _ _ _)

/-! ## The second layer -/

theorem output_eq : val_main_v59 (F := Ideal) x0 x1 x2 x3 x4 x5 x6 x7 = Glue.output x1 x0 x2 x3 x4 x5 x6 x7 := by
  funext i
  obtain ⟨p, q, rfl⟩ : ∃ (p : Fin 100000) (q : Fin 32), i = ix2 p q := ⟨i 0, i 1, eq_ix2 i⟩
  have hl53 : ∀ k : Fin 16, lidx_main_v53 (ix2 p q) k = ix2 p k := fun k =>
    funext fun a => match a with | ⟨0, _⟩ => rfl | ⟨1, _⟩ => rfl
  have hr53 : ∀ k : Fin 16, idx_main_v52 (ridx_main_v53 (ix2 p q) k) = ix2 q k := fun k =>
    funext fun a => match a with | ⟨0, _⟩ => rfl | ⟨1, _⟩ => rfl
  have hd : ∀ k : Fin 16, idx_main_v49 (idx_main_v50 (ix2 p k)) = ix1 p := fun k =>
    funext fun a => match a with | ⟨0, _⟩ => rfl
  have hb : idx_main_v54 (idx_main_v55 (ix2 p q)) = ix1 q :=
    funext fun a => match a with | ⟨0, _⟩ => rfl
  have hl58 : ∀ k : Fin 16, lidx_main_v58 (ix2 p q) k = ix2 p k := fun k =>
    funext fun a => match a with | ⟨0, _⟩ => rfl | ⟨1, _⟩ => rfl
  have hr58 : ∀ k : Fin 16, idx_main_v57 (ridx_main_v58 (ix2 p q) k) = ix2 q k := fun k =>
    funext fun a => match a with | ⟨0, _⟩ => rfl | ⟨1, _⟩ => rfl
  rw [val_main_v59_apply, val_main_v56_apply, val_main_v53_apply, val_main_v58_apply, val_main_v55_apply,
    val_main_v54_apply]
  have hA : ∀ k : Fin 16, val_main_v51 (F := Ideal) x0 x1 x2 x3 x4 (lidx_main_v53 (ix2 p q) k) * val_main_v52 (F := Ideal) x5 (ridx_main_v53 (ix2 p q) k)
      = mean (Glue.agg16 x1 (Glue.hidden x1 x0 x2 x3 x4)) (Glue.degCol x1) p k * x5 (ix2 q k) := fun k => by
    rw [hl53 k, val_main_v52_apply, hr53 k, val_main_v51_apply, val_main_v50_apply, val_main_v49_apply, val_main_v48_apply,
      val_main_v47_apply, val_main_cst_9_apply, hd k, msg2_eq, hidden_eq, deg2_eq]
    unfold mean
    rw [degCol_at]
    all_goals rfl
  have hB : ∀ k : Fin 16, val_main_v32 (F := Ideal) x0 x1 x2 x3 x4 (lidx_main_v58 (ix2 p q) k) * val_main_v57 (F := Ideal) x7 (ridx_main_v58 (ix2 p q) k)
      = Glue.hidden x1 x0 x2 x3 x4 (ix2 p k) * x7 (ix2 q k) := fun k => by
    rw [hl58 k, val_main_v57_apply, hr58 k, hidden_eq]
  rw [Finset.sum_congr rfl (fun k _ => hA k), Finset.sum_congr rfl (fun k _ => hB k), hb]
  unfold Glue.output
  rw [lin_ix2]
  unfold linAt
  rw [biasRow32_at]
  exact add_bias_mid _ _ _

end Cert.Sage.Ref

end
-- ==== Proof.lean ====
/-
  Two layers of mean-aggregating graph convolution over 100000 nodes and 1600000 edges: a program that
  does the dense part of each layer in a call tiled over blocks of 5000 nodes, against a reference that
  does everything on whole arrays.

  At the ideal values both compute, for each layer, node `p` and output feature `q`,

      ∑ c, (msg p c / max (deg p) 1) * Wl q c  +  ∑ c, x p c * Wr q c  +  b q

  (`Sage.linAt`), the first layer followed by the maximum with zero, where `msg` and `deg` come from the same
  gathers at the edges' sources and additions at their destinations on both sides (`Sage.Glue`).  They differ
  in three ways, none of which changes an extended real: the tiled program rounds the operands of its
  products (and the gathered rows) to a shorter float format, which is the identity at the ideal values;
  it works block of rows by block of rows, and the layer is row-local (`Sage.linAt_rows`) while the blocks
  cover the rows; and it adds the bias after both products where the reference adds it between them —
  addition of extended reals is commutative and associative (`Sage.add_bias_mid`).  No finiteness of the
  inputs is used.

  Proof/SageLayer.lean states the layer; Proof/KernelBody.lean reads what a tiled call's body stores;
  Proof/Region0.lean and Proof/Region1.lean turn the blocks written by the grid points into the whole output
  array; Proof/HostGlue.lean names the irregular part and the network; Proof/KernelRun.lean is the tiled
  program's run with its result named and Proof/KernelValue.lean reads that result back to the launch arrays;
  Proof/Reference.lean reads the reference's result.  The three frame claims are the generated ones, the
  reference's being its generated run with the result dropped; nothing was rewritten in idealizing the
  tiled program, so that claim is trivial.
-/
import proofs.«133266_j26216480375160_2_alg».proof.Defs
import proofs.«133266_j26216480375160_2_alg».proof.Proof.Gen.Kernel
import proofs.«133266_j26216480375160_2_alg».proof.Proof.Gen.Kernel.Skeleton
import proofs.«133266_j26216480375160_2_alg».proof.Proof.Gen.Kernel.Launch
import proofs.«133266_j26216480375160_2_alg».proof.Proof.Gen.Kernel.Points
import proofs.«133266_j26216480375160_2_alg».proof.Proof.Gen.Kernel.Frame
import proofs.«133266_j26216480375160_2_alg».proof.Proof.Gen.KernelIdeal
import proofs.«133266_j26216480375160_2_alg».proof.Proof.Gen.KernelIdeal.Skeleton
import proofs.«133266_j26216480375160_2_alg».proof.Proof.Gen.KernelIdeal.Launch
import proofs.«133266_j26216480375160_2_alg».proof.Proof.Gen.KernelIdeal.Points
import proofs.«133266_j26216480375160_2_alg».proof.Proof.Gen.KernelIdeal.Frame
import proofs.«133266_j26216480375160_2_alg».proof.Proof.Gen.ReferenceIdeal
import proofs.«133266_j26216480375160_2_alg».proof.Proof.Gen.ReferenceIdeal.Run
import proofs.«133266_j26216480375160_2_alg».proof.Proof.Gen.ReferenceIdeal.Read
import proofs.«133266_j26216480375160_2_alg».proof.Proof.Gen.Pre_finite_inputs
import proofs.«133266_j26216480375160_2_alg».proof.Proof.KernelRun
import proofs.«133266_j26216480375160_2_alg».proof.Proof.KernelValue
import proofs.«133266_j26216480375160_2_alg».proof.Proof.Reference
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network's output of the launch arrays, which agree. -/
theorem algebraic : Cert.algebraic_KernelIdeal_ReferenceIdeal := by
  intro m ρ m' ρ' _ hagree
  refine ⟨fun c => Cert.Sage.Glue.output (Cert.Sage.Value.edges m c) (Cert.Sage.Value.feat m c) (Cert.Sage.Value.wl1 m c)
    (Cert.Sage.Value.b1 m c) (Cert.Sage.Value.wr1 m c) (Cert.Sage.Value.wl2 m c) (Cert.Sage.Value.b2 m c)
    (Cert.Sage.Value.wr2 m c), ?_, ?_⟩
  · exact (θ_run Cert.KernelIdeal.defs _ _).mono
      (fun r h c => ⟨(h c).1.trans (Cert.Sage.Value.result_eq m ρ c), (h c).2⟩) (Cert.Sage.Run.run_out m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v59_eq, Cert.Sage.Ref.output_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
